-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x16x64x2048 : Shape := ⟨4, ![4, 16, 64, 2048]⟩
abbrev S4x16x2048x2048 : Shape := ⟨4, ![4, 16, 2048, 2048]⟩
abbrev S1x1x1024x64 : Shape := ⟨4, ![1, 1, 1024, 64]⟩
abbrev S1x1x64x2048 : Shape := ⟨4, ![1, 1, 64, 2048]⟩
abbrev S1x1x1024x2048 : Shape := ⟨4, ![1, 1, 1024, 2048]⟩
abbrev S1024x64 : Shape := ⟨2, ![1024, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x64x2048, .f32⟩
  | .hbm, ⟨4, _⟩ => ⟨S4x16x2048x2048, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x64x2048, .f32⟩
  | .local _ .vmem, ⟨3, _⟩ => ⟨S1x1x64x2048, .f32⟩
  | .local _ .vmem, ⟨4, _⟩ => ⟨S1x1x1024x2048, .f32⟩
  | .local _ .vmem, ⟨5, _⟩ => ⟨S1x1x1024x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S4x16x2048x64_S4x16x64x2048_0_1_3_2 : S4x16x2048x64.Transposes [0, 1, 3, 2] S4x16x64x2048
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  reduces_S1024x2048_S1024 : S1024x2048.Reduces [1] S1024
  shapeCasts_S1024_S1024x1 : S1024.ShapeCasts S1024x1
  broadcasts_S1024x1_S1024x2048 : S1024x1.Broadcasts S1024x2048
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  shapeCasts_S1024x2048_S1x1x1024x2048 : S1024x2048.ShapeCasts S1x1x1024x2048
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x2048x64.size a
  hwx0_0 : ∀ i : grid0.Coords, EltTy.bits .f32 = 32 ∨ (Rect.block (s := S4x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2048.size a ≤ S4x16x64x2048.size a
  hwx0_1 : ∀ i : grid0.Coords, EltTy.bits .f32 = 32 ∨ (Rect.block (s := S4x16x64x2048) S1x1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x2048.size a ≤ S4x16x2048x2048.size a
  hwx0_2 : ∀ i : grid0.Coords, EltTy.bits .f32 = 32 ∨ (Rect.block (s := S4x16x2048x2048) S1x1x1024x2048.size (cc0_transform_2 i) (hinb0_2 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S_, .f32⟩
  | .hbm, ⟨11, _⟩ => ⟨S4x16x2048, .f32⟩
  | .hbm, ⟨12, _⟩ => ⟨S_, .f32⟩
  | .hbm, ⟨13, _⟩ => ⟨S4x16x2048, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf

class Facts : Prop extends Facts₀ where

variable [Facts]
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibUnitAxes.lean ====
/-
  A block that carries two leading unit axes is the same matrix with those axes dropped or added: the entry
  at (0, 0, p, q) of the block is the entry at (p, q) of the matrix.
-/
import Idealize.ShloMosaic.Lib.ValueIdx
import Idealize.ShloMosaic.Lib.Pipeline.Value

namespace LibUnitAxes

open Idealize.ShloMosaic Idealize.ShloMosaic.ValueIdx

variable {α : Type}

/-- A [1, 1, a, b] block viewed as an a-by-b matrix reads, at (p, q), the block at (0, 0, p, q). -/
theorem cast_drop2_apply {a b : ℕ} (v : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ v h (ix2 p q) = v (ix4 (0 : Fin 1) (0 : Fin 1) p q) :=
  shapeCast_apply v h _ _ (by
    rw [Shape.rowMajor_val_four, Shape.rowMajor_val_two]
    show (((0 : ℕ) * 1 + 0) * a + p.val) * b + q.val = p.val * b + q.val
    simp only [Nat.zero_mul, Nat.zero_add])

/-- An a-by-b matrix stored as a [1, 1, a, b] block reads, at (u, u', p, q), the matrix at (p, q). -/
theorem cast_add2_apply {a b : ℕ} (v : (⟨2, ![a, b]⟩ : Shape).Idx → α)
    (h : (⟨2, ![a, b]⟩ : Shape).ShapeCasts ⟨4, ![1, 1, a, b]⟩) (u u' : Fin 1) (p : Fin a) (q : Fin b) :
    shapeCast ⟨4, ![1, 1, a, b]⟩ v h (ix4 u u' p q) = v (ix2 p q) :=
  shapeCast_apply v h _ _ (by
    have hu : u.val = 0 := by omega
    have hu' : u'.val = 0 := by omega
    rw [Shape.rowMajor_val_four, Shape.rowMajor_val_two]
    show p.val * b + q.val = ((u.val * 1 + u'.val) * a + p.val) * b + q.val
    simp only [hu, hu', Nat.zero_mul, Nat.zero_add])

end LibUnitAxes
-- ==== Proof.Softmax.lean ====
/-
  Row softmax of scaled dot-product scores, as one function of the query and key arrays.

  For batch b, head h and query row r the score against key row j is the dot product over the 64 feature
  coordinates of query row r and key row j, times 1/8.  The row is shifted by its maximum (the running
  maximum starts at minus infinity), exponentiated, and divided by the sum of the exponentials over the
  2048 key rows.
-/
import Idealize.ShloMosaic.PureOps.Ideal
import Idealize.ShloMosaic.Lib.ValueIdx

noncomputable section

namespace Cert.Attn

open Idealize.ShloMosaic Idealize.ShloMosaic.ValueIdx

/-- The maximum of a row, the running maximum started at minus infinity. -/
def rowMax {C : ℕ} (s : Fin C → EReal) : EReal :=
  (Finset.univ : Finset (Fin C)).fold max (Ideal.ofBits .f32 0xFF800000#32) s

/-- The exponential of a row's entry shifted by the row's maximum. -/
def shiftedExp {C : ℕ} (s : Fin C → EReal) (j : Fin C) : EReal := Ideal.exp (s j - rowMax s)

/-- Softmax of a row: each shifted exponential over their sum. -/
def softmaxRow {C : ℕ} (s : Fin C → EReal) (j : Fin C) : EReal :=
  Ideal.div (shiftedExp s j) (∑ j' : Fin C, shiftedExp s j')

/-- The scaled scores of query row (b, h, r) against every key row. -/
def scoreRow (q k : (⟨4, ![4, 16, 2048, 64]⟩ : Shape).Idx → EReal) (b : Fin 4) (h : Fin 16) (r : Fin 2048) :
    Fin 2048 → EReal :=
  fun j => (∑ d : Fin 64, q (ix4 b h r d) * k (ix4 b h j d)) * Ideal.ofBits .f32 0x3E000000#32

/-- The attention weights at explicit coordinates. -/
def attnAt (q k : (⟨4, ![4, 16, 2048, 64]⟩ : Shape).Idx → EReal) (b : Fin 4) (h : Fin 16) (r j : Fin 2048) : EReal :=
  softmaxRow (scoreRow q k b h r) j

/-- The attention weights as an array. -/
def attn (q k : (⟨4, ![4, 16, 2048, 64]⟩ : Shape).Idx → EReal) : (⟨4, ![4, 16, 2048, 2048]⟩ : Shape).Idx → EReal :=
  fun i => attnAt q k ⟨(i 0).val, (i 0).isLt⟩ ⟨(i 1).val, (i 1).isLt⟩ ⟨(i 2).val, (i 2).isLt⟩ ⟨(i 3).val, (i 3).isLt⟩

theorem attn_ix4 (q k : (⟨4, ![4, 16, 2048, 64]⟩ : Shape).Idx → EReal) (b : Fin 4) (h : Fin 16) (r j : Fin 2048) :
    attn q k (ix4 b h r j) = attnAt q k b h r j := rfl

end Cert.Attn

end
-- ==== Proof.Body.lean ====
/-
  What the kernel body stores, read at an entry of the block.

  The body holds a block of 1024 query rows and the whole transposed key block (64 features by 2048 key
  rows).  Its scores are the matrix product of the two times 1/8; each row is shifted by its maximum,
  exponentiated and divided by the row's sum.  So the stored block, at row r and column j, is the softmax
  of row r's scores at j, the score of row r against column j being the sum over the 64 features d of the
  query block at (r, d) times the key block at (d, j), times 1/8.
-/
import proofs.«157505_j12713103196400_2_alg».proof.Proof.Gen.KernelIdeal.Skeleton
import proofs.«157505_j12713103196400_2_alg».proof.Proof.LibColumn
import proofs.«157505_j12713103196400_2_alg».proof.Proof.LibMatmul
import proofs.«157505_j12713103196400_2_alg».proof.Proof.LibUnitAxes
import proofs.«157505_j12713103196400_2_alg».proof.Proof.Softmax
import Idealize.ShloMosaic.PureOps.Ideal.Laws
import Idealize.ShloMosaic.Lib.Pipeline.Value

noncomputable section

namespace Cert.KernelIdeal.Body

open Cert.KernelIdeal Cert.KernelIdeal.Gen Idealize.ShloMosaic Idealize.ShloMosaic.ValueIdx Cert.Attn

variable (x0 : Vec Ideal S1x1x1024x64 .f32) (x1 : Vec Ideal S1x1x64x2048 .f32)

/-- The block's scaled scores: query block times transposed key block, times 1/8. -/
def scores : FVec Ideal S1024x2048 .f32 :=
  mulf (matmul dot_S1024x64_S64x2048_S1024x2048_1_0_0_1_n_n (some .fp32)
        (shapeCast S1024x64 x0 shapeCasts_S1x1x1024x64_S1024x64 : FVec Ideal S1024x64 .f32)
        (shapeCast S64x2048 x1 shapeCasts_S1x1x64x2048_S64x2048 : FVec Ideal S64x2048 .f32)
        (constant S1024x2048 .f32 0x00000000#32))
    (broadcast S1024x2048 (Scalar.ofBits .f32 0x3E000000#32 : Ideal .f32))

/-- The maximum of each row of scores. -/
def rowMaxes : FVec Ideal S1024 .f32 :=
  multiReduction .maximumf [1] S1024 (scores x0 x1) 0xFF800000#32 reduces_S1024x2048_S1024 (.inl rfl) rfl

/-- The exponentials of the scores shifted by their row's maximum. -/
def exps : FVec Ideal S1024x2048 .f32 :=
  exp (subf (scores x0 x1)
    (broadcastTo S1024x2048 (shapeCast S1024x1 (rowMaxes x0 x1) shapeCasts_S1024_S1024x1 : FVec Ideal S1024x1 .f32)
      broadcasts_S1024x1_S1024x2048))

/-- The sum of each row of exponentials. -/
def rowSums : FVec Ideal S1024 .f32 :=
  multiReduction .add [1] S1024 (exps x0 x1) 0x00000000#32 reduces_S1024x2048_S1024 (.inl rfl) rfl

/-- The stored value is the quotient of the exponentials by their row sums, laid out as a block. -/
theorem pay_eq : k0_pay1 (F := Ideal) x0 x1 =
    shapeCast S1x1x1024x2048
      (divf (exps x0 x1)
        (broadcastTo S1024x2048 (shapeCast S1024x1 (rowSums x0 x1) shapeCasts_S1024_S1024x1 : FVec Ideal S1024x1 .f32)
          broadcasts_S1024x1_S1024x2048) : FVec Ideal S1024x2048 .f32)
      shapeCasts_S1024x2048_S1x1x1024x2048 := rfl

/-- Row r's scores against the key block's columns. -/
def blockScoreRow (r : Fin 1024) : Fin 2048 → EReal :=
  fun j => (∑ d : Fin 64, x0 (ix4 (0 : Fin 1) (0 : Fin 1) r d) * x1 (ix4 (0 : Fin 1) (0 : Fin 1) d j))
    * Ideal.ofBits .f32 0x3E000000#32

theorem scores_apply (r : Fin 1024) (j : Fin 2048) : scores x0 x1 (ix2 r j) = blockScoreRow x0 x1 r j := by
  unfold scores blockScoreRow
  show FloatOps.matmul (DotDims.plain 1024 64 2048) (some .fp32) _ _ (constant (F := Ideal) ⟨2, ![1024, 2048]⟩ .f32 0x00000000#32) (ix2 r j)
      * Ideal.ofBits .f32 0x3E000000#32 = _
  refine congrArg (· * Ideal.ofBits .f32 0x3E000000#32) ?_
  refine (LibMatmul.matmul_zero_apply 1024 64 2048 (some .fp32) _ _ (ix2 r j)).trans ?_
  refine Finset.sum_congr rfl fun d _ => ?_
  rw [LibUnitAxes.cast_drop2_apply, LibUnitAxes.cast_drop2_apply]

/-- Row r with column j put back is (r, j). -/
theorem lift_eq (r : Fin 1024) (j : Fin (S1024x2048.size 1)) :
    reduces_S1024x2048_S1024.lift (ix1 r) j = ix2 r (⟨j.val, j.isLt⟩ : Fin 2048) :=
  funext fun a => Fin.ext (by match a with | ⟨0, _⟩ => rfl | ⟨1, _⟩ => rfl)

theorem rowMaxes_apply (r : Fin 1024) : rowMaxes x0 x1 (ix1 r) = rowMax (blockScoreRow x0 x1 r) := by
  unfold rowMaxes
  refine (Ideal.multiReduction_maximumf_single (scores x0 x1) 0xFF800000#32 reduces_S1024x2048_S1024 (.inl rfl) rfl (ix1 r)).trans ?_
  have hf : (scores x0 x1 ∘ reduces_S1024x2048_S1024.lift (ix1 r)) = blockScoreRow x0 x1 r := funext fun j => by
    show scores x0 x1 (reduces_S1024x2048_S1024.lift (ix1 r) j) = _
    rw [lift_eq]
    exact scores_apply x0 x1 r _
  exact congrArg (fun f => Finset.fold max (Ideal.ofBits .f32 0xFF800000#32) f (Finset.univ : Finset (Fin 2048))) hf

theorem exps_apply (r : Fin 1024) (j : Fin 2048) : exps x0 x1 (ix2 r j) = shiftedExp (blockScoreRow x0 x1 r) j := by
  unfold exps shiftedExp
  show Ideal.exp (scores x0 x1 (ix2 r j)
    - broadcastTo S1024x2048 (shapeCast S1024x1 (rowMaxes x0 x1) shapeCasts_S1024_S1024x1 : FVec Ideal S1024x1 .f32) broadcasts_S1024x1_S1024x2048 (ix2 r j)) = _
  rw [Cert.Splat.Column.broadcastTo_a1_ab_apply, Cert.Splat.Column.shapeCast_a_a1_apply, scores_apply, rowMaxes_apply]

theorem rowSums_apply (r : Fin 1024) : rowSums x0 x1 (ix1 r) = ∑ j : Fin 2048, shiftedExp (blockScoreRow x0 x1 r) j := by
  unfold rowSums
  refine (Ideal.multiReduction_add_single (exps x0 x1) 0x00000000#32 reduces_S1024x2048_S1024 (.inl rfl) rfl (ix1 r)).trans ?_
  refine Finset.sum_congr rfl fun j _ => ?_
  rw [lift_eq]
  exact exps_apply x0 x1 r _

/-- The stored block at (0, 0, r, j) is the softmax of row r's scores at j. -/
theorem pay_apply (r : Fin 1024) (j : Fin 2048) :
    k0_pay1 (F := Ideal) x0 x1 (ix4 (0 : Fin 1) (0 : Fin 1) r j) = softmaxRow (blockScoreRow x0 x1 r) j := by
  rw [pay_eq, LibUnitAxes.cast_add2_apply]
  show Ideal.div (exps x0 x1 (ix2 r j))
    (broadcastTo S1024x2048 (shapeCast S1024x1 (rowSums x0 x1) shapeCasts_S1024_S1024x1 : FVec Ideal S1024x1 .f32) broadcasts_S1024x1_S1024x2048 (ix2 r j)) = _
  rw [Cert.Splat.Column.broadcastTo_a1_ab_apply, Cert.Splat.Column.shapeCast_a_a1_apply, exps_apply, rowSums_apply]
  rfl

end Cert.KernelIdeal.Body

end
-- ==== Proof.Blocks.lean ====
/-
  From blocks to the whole array.

  The grid has a point for each batch b, head h and half qi of the query rows.  At that point the query
  window holds rows qi·1024 … qi·1024 + 1023 of (b, h), the key window holds the whole transposed key
  matrix of (b, h), and the output window is rows qi·1024 … of the (b, h) slab of the result.  The key
  array the region finds is the key argument with its last two axes exchanged.  So the block a point
  writes back is the attention weights read through that point's block, and since the blocks tile the
  result, the result is the attention weights.
-/
import proofs.«157505_j12713103196400_2_alg».proof.Proof.Gen.KernelIdeal.Value
import proofs.«157505_j12713103196400_2_alg».proof.Proof.Body
import proofs.«157505_j12713103196400_2_alg».proof.Proof.Softmax
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Attn Idealize.ShloMosaic.StableHlo
open Idealize.ShloMosaic.Pipeline (Dat)

variable (m : (ℓ : Loc nD τ sig) → Buf (Elt Ideal) ℓ) (ρ : Dev nD → PrngReg)

theorem zero_off : (![0, 0, 0, 0] : Fin 4 → Nat) = fun _ => 0 := funext fun a => by fin_cases a <;> rfl

/-! ## The key array as the region finds it -/

/-- The region's second operand is the key argument with its last two axes exchanged. -/
theorem keyT_eq (c : Dev nD) : (V m c main_v0 : S4x16x64x2048.Idx → EReal) =
    transpose S4x16x64x2048 [0, 1, 3, 2] (m ((c : Thread nD τ).loc main_arg1)) transposes_S4x16x2048x64_S4x16x64x2048_0_1_3_2 := by
  dsimp only [Gen.V, Gen.hostOps0]; after_results

/-- Read at (b, h, d, j) it is the key argument at (b, h, j, d). -/
theorem keyT_apply (c : Dev nD) (b : Fin 4) (h : Fin 16) (d : Fin 64) (j : Fin 2048) :
    (V m c main_v0 : S4x16x64x2048.Idx → EReal) (ix4 b h d j) = m ((c : Thread nD τ).loc main_arg1) (ix4 b h j d) := by
  rw [keyT_eq]
  exact transpose_apply _ _ _ _ _ (fun a => by
    match a with | ⟨0, _⟩ => rfl | ⟨1, _⟩ => rfl | ⟨2, _⟩ => rfl | ⟨3, _⟩ => rfl)

/-! ## One block -/

/-- A block of the kernel's stored values is a block of the attention weights, when the query block holds
    rows R0 … of (b, h) and the key block holds the transposed keys of (b, h). -/
theorem block_entry_at (q k : (⟨4, ![4, 16, 2048, 64]⟩ : Shape).Idx → EReal)
    (x0 : Vec Ideal S1x1x1024x64 .f32) (x1 : Vec Ideal S1x1x64x2048 .f32) (b : Fin 4) (h : Fin 16) (R0 : ℕ)
    (h0 : ∀ (r : Fin 1024) (d : Fin 64) (hr : R0 + r.val < 2048),
      x0 (ix4 (0 : Fin 1) (0 : Fin 1) r d) = q (ix4 b h (⟨R0 + r.val, hr⟩ : Fin 2048) d))
    (h1 : ∀ (d : Fin 64) (j : Fin 2048), x1 (ix4 (0 : Fin 1) (0 : Fin 1) d j) = k (ix4 b h j d))
    (r : Fin 1024) (j : Fin 2048) (hr : R0 + r.val < 2048) :
    k0_pay1 (F := Ideal) x0 x1 (ix4 (0 : Fin 1) (0 : Fin 1) r j) = attnAt q k b h (⟨R0 + r.val, hr⟩ : Fin 2048) j := by
  rw [Body.pay_apply]
  unfold attnAt
  refine congrArg (fun s => softmaxRow s j) ?_
  funext j'
  unfold Body.blockScoreRow scoreRow
  refine congrArg (· * Ideal.ofBits .f32 0x3E000000#32) (Finset.sum_congr rfl fun d _ => ?_)
  rw [h0 r d hr, h1 d j']

/-- The same at any index of the block. -/
theorem block_entry (q k : (⟨4, ![4, 16, 2048, 64]⟩ : Shape).Idx → EReal)
    (x0 : Vec Ideal S1x1x1024x64 .f32) (x1 : Vec Ideal S1x1x64x2048 .f32) (b : Fin 4) (h : Fin 16) (R0 : ℕ)
    (h0 : ∀ (r : Fin 1024) (d : Fin 64) (hr : R0 + r.val < 2048),
      x0 (ix4 (0 : Fin 1) (0 : Fin 1) r d) = q (ix4 b h (⟨R0 + r.val, hr⟩ : Fin 2048) d))
    (h1 : ∀ (d : Fin 64) (j : Fin 2048), x1 (ix4 (0 : Fin 1) (0 : Fin 1) d j) = k (ix4 b h j d))
    (y : S1x1x1024x2048.Idx) (hr : R0 + (y 2).val < 2048) :
    k0_pay1 (F := Ideal) x0 x1 y = attnAt q k b h (⟨R0 + (y 2).val, hr⟩ : Fin 2048) (⟨(y 3).val, (y 3).isLt⟩ : Fin 2048) := by
  obtain ⟨u, u', r, j, rfl⟩ : ∃ (u u' : Fin 1) (r : Fin 1024) (j : Fin 2048), y = ix4 u u' r j := ⟨y 0, y 1, y 2, y 3, eq_ix4 y⟩
  obtain rfl : u = 0 := Subsingleton.elim _ _
  obtain rfl : u' = 0 := Subsingleton.elim _ _
  exact block_entry_at q k x0 x1 b h R0 h0 h1 r j hr

/-! ## The index maps over the grid -/

/-- The query window moves with the output window; the key window follows its batch and head only. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (3 : Fin 4) = 0
    ∧ win0_2.index t (0 : Fin 4) < 4 ∧ win0_2.index t (1 : Fin 4) < 16 ∧ win0_2.index t (2 : Fin 4) < 2 :=
  (by decide +kernel : ∀ t : Fin grid0.N, _)

/-- Every (batch, head, half) is some point's output block. -/
theorem idx_onto : ∀ (q0 : Fin 4) (q1 : Fin 16) (q2 : Fin 2), ∃ t : Fin cfg0.N, win0_2.index t = ![q0.val, q1.val, q2.val, 0] :=
  (by decide +kernel : ∀ (q0 : Fin 4) (q1 : Fin 16) (q2 : Fin 2), ∃ t : Fin grid0.N, win0_2.index t = ![q0.val, q1.val, q2.val, 0])

/-! ## What a point writes back -/

/-- Point t writes back the attention weights read through its block. -/
theorem flushed_eq (c : Dev nD) (t : Fin cfg0.N) :
    (dats m 0 c).flushed 2 t = ((cfg0.win 2).blk t).view.read (Elt Ideal)
      (attn (m ((c : Thread nD τ).loc main_arg0)) (m ((c : Thread nD τ).loc main_arg1))) := by
  rw [Cert.KernelIdeal.Value.flushed2]
  unfold out0_2
  rw [View.canon_unit_zero zero_off]
  simp only [View.ld_unit_zero (S := S1x1x1024x64) zero_off, View.ld_unit_zero (S := S1x1x64x2048) zero_off]
  funext y
  obtain ⟨e0, e1, e2, e3, e4, e5, e6, e7, e8, lb, lh, lq⟩ := idx_facts t
  have y2 : (y 2).val < 1024 := (y 2).isLt
  have hr : win0_2.index t (2 : Fin 4) * 1024 + (y 2).val < 2048 := by omega
  show k0_pay1 (F := Ideal) (iblk m c 0 t) (iblk m c 1 t) y
      = attn (m ((c : Thread nD τ).loc main_arg0)) (m ((c : Thread nD τ).loc main_arg1)) (((cfg0.win 2).blk t).view.emb y)
  have hemb : ((cfg0.win 2).blk t).view.emb y
      = ix4 (⟨win0_2.index t (0 : Fin 4), lb⟩ : Fin 4) (⟨win0_2.index t (1 : Fin 4), lh⟩ : Fin 16)
          (⟨win0_2.index t (2 : Fin 4) * 1024 + (y 2).val, hr⟩ : Fin 2048) (⟨(y 3).val, (y 3).isLt⟩ : Fin 2048) := by
    funext a; apply Fin.ext
    match a with
    | ⟨0, _⟩ => show win0_2.index t (0 : Fin 4) * 1 + 1 * (y 0).val = win0_2.index t (0 : Fin 4); have : (y 0).val < 1 := (y 0).isLt; omega
    | ⟨1, _⟩ => show win0_2.index t (1 : Fin 4) * 1 + 1 * (y 1).val = win0_2.index t (1 : Fin 4); have : (y 1).val < 1 := (y 1).isLt; omega
    | ⟨2, _⟩ => show win0_2.index t (2 : Fin 4) * 1024 + 1 * (y 2).val = win0_2.index t (2 : Fin 4) * 1024 + (y 2).val; omega
    | ⟨3, _⟩ => show win0_2.index t (3 : Fin 4) * 2048 + 1 * (y 3).val = (y 3).val; omega
  rw [hemb, attn_ix4]
  refine block_entry _ _ (iblk m c 0 t) (iblk m c 1 t) _ _ (win0_2.index t (2 : Fin 4) * 1024) ?_ ?_ y hr
  · intro r d hr'
    show V m c main_arg0 (((cfg0.win 0).blk t).view.emb (ix4 (0 : Fin 1) (0 : Fin 1) r d)) = _
    rw [V_main_arg0]
    refine congrArg (m ((c : Thread nD τ).loc main_arg0)) (funext fun a => Fin.ext ?_)
    match a with
    | ⟨0, _⟩ => show win0_0.index t (0 : Fin 4) * 1 + 1 * 0 = win0_2.index t (0 : Fin 4); omega
    | ⟨1, _⟩ => show win0_0.index t (1 : Fin 4) * 1 + 1 * 0 = win0_2.index t (1 : Fin 4); omega
    | ⟨2, _⟩ => show win0_0.index t (2 : Fin 4) * 1024 + 1 * r.val = win0_2.index t (2 : Fin 4) * 1024 + r.val; omega
    | ⟨3, _⟩ => show win0_0.index t (3 : Fin 4) * 64 + 1 * d.val = d.val; omega
  · intro d j
    show (V m c main_v0 : S4x16x64x2048.Idx → EReal) (((cfg0.win 1).blk t).view.emb (ix4 (0 : Fin 1) (0 : Fin 1) d j)) = _
    rw [show ((cfg0.win 1).blk t).view.emb (ix4 (0 : Fin 1) (0 : Fin 1) d j)
        = ix4 (⟨win0_2.index t (0 : Fin 4), lb⟩ : Fin 4) (⟨win0_2.index t (1 : Fin 4), lh⟩ : Fin 16) d j from
      funext fun a => Fin.ext (by
        match a with
        | ⟨0, _⟩ => show win0_1.index t (0 : Fin 4) * 1 + 1 * 0 = win0_2.index t (0 : Fin 4); omega
        | ⟨1, _⟩ => show win0_1.index t (1 : Fin 4) * 1 + 1 * 0 = win0_2.index t (1 : Fin 4); omega
        | ⟨2, _⟩ => show win0_1.index t (2 : Fin 4) * 64 + 1 * d.val = d.val; omega
        | ⟨3, _⟩ => show win0_1.index t (3 : Fin 4) * 2048 + 1 * j.val = j.val; omega)]
    exact keyT_apply m c _ _ d j

/-! ## The blocks tile the result -/

/-- An index of the result is in point t's block iff each coordinate is in the block's range on its axis. -/
theorem mem_blk (t : Fin cfg0.N) (i : S4x16x2048x2048.Idx) :
    i ∈ ((cfg0.win 2).blk t).view.set ↔ ∀ a : Fin 4, win0_2.index t a * S1x1x1024x2048.size a ≤ (i a).val
      ∧ (i a).val < win0_2.index t a * S1x1x1024x2048.size a + S1x1x1024x2048.size a := by
  show i ∈ ((View.whole main_v1).slice (win0_2.rect t)).set ↔ _
  rw [View.set_slice_whole, Rect.mem_set_unit]
  exact Iff.rfl

/-- Every index of the result is in some point's block: batch, head, and the half its row falls in. -/
theorem cover (i : S4x16x2048x2048.Idx) :
    ∃ t : Fin cfg0.N, (cfg0.win 2).flush t = true ∧ i ∈ ((cfg0.win 2).blk t).view.set := by
  have hi0 : (i 0).val < 4 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 1024, by omega⟩
  have q0 : win0_2.index t (0 : Fin 4) = (i 0).val := congrFun ht 0
  have q1 : win0_2.index t (1 : Fin 4) = (i 1).val := congrFun ht 1
  have q2 : win0_2.index t (2 : Fin 4) = (i 2).val / 1024 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 2048 ≤ (i 3).val ∧ (i 3).val < win0_2.index t (3 : Fin 4) * 2048 + 2048; omega

/-! ## The whole result, and the run -/

/-- After the run the result array holds the attention weights of the query and key arguments. -/
theorem final (c : Dev nD) : (dats m 0 c).arrAt 2 cfg0.N
    = attn (m ((c : Thread nD τ).loc main_arg0)) (m ((c : Thread nD τ).loc main_arg1)) :=
  (dats m 0 c).arrAt_eq_of_cover 2 _ (fun t _ => flushed_eq m c t) cover

/-- Every weakly fair execution of the kernel's program ends with the result at the attention weights and
    the arguments unchanged. -/
theorem run : θ_run defs (onTc (τ := τ) (main (F := Ideal))) ⟨m, fun _ => 0, ρ⟩ fun r => ∀ c : Dev nD,
      r.2.mem ((c : Thread nD τ).loc main_v1) = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.Scale.lean ====
/-
  The softmax scale.  The kernel multiplies the scores by the constant 1/8; the reference divides one by
  the square root of sixty-four.  Sixty-four is the square of eight, so its square root is exactly eight and
  the two scales are the same extended real.  The starting value of a running maximum, minus infinity, is
  neutral for the maximum.
-/
import Idealize.ShloMosaic.PureOps.Ideal
import Idealize.ShloMosaic.PureOps.Ideal.Laws

noncomputable section

namespace Cert.Attn.Scale

open Idealize.ShloMosaic

/-- The word of 64.0 denotes the real 64. -/
theorem ofBits_sixtyFour : Ideal.ofBits .f32 0x42800000#32 = ((64 : ℝ) : EReal) := by
  simp [Ideal.ofBits, Ideal.ieee, -EReal.coe_mul]; norm_num

/-- The word of 1.0 denotes the real 1. -/
theorem ofBits_one : Ideal.ofBits .f32 0x3F800000#32 = ((1 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The word of minus infinity denotes the bottom of the extended reals. -/
theorem ofBits_negInf : Ideal.ofBits .f32 0xFF800000#32 = (⊥ : EReal) := by
  simp [Ideal.ofBits, Ideal.ieee]

/-- The square root of 64 is 8. -/
theorem sqrt_sixtyFour : Ideal.sqrt ((64 : ℝ) : EReal) = ((8 : ℝ) : EReal) := by
  rw [Ideal.sqrt_coe, if_neg (by norm_num)]
  have h : Real.sqrt 64 = 8 := by
    rw [show (64 : ℝ) = 8 ^ 2 by norm_num]; exact Real.sqrt_sq (by norm_num)
  rw [h]

/-- One over the square root of 64 is the kernel's constant 1/8. -/
theorem one_div_sqrt_eq :
    Ideal.div (Ideal.ofBits .f32 0x3F800000#32) (Ideal.sqrt (Ideal.ofBits .f32 0x42800000#32))
      = Ideal.ofBits .f32 0x3E000000#32 := by
  rw [ofBits_sixtyFour, sqrt_sixtyFour, ofBits_one, ofBits_eighth, Ideal.div_coe (by norm_num : (8 : ℝ) ≠ 0),
    EReal.coe_one, one_mul]

/-- Taking the maximum with minus infinity changes nothing. -/
theorem max_negInf_left (y : EReal) : max (Ideal.ofBits .f32 0xFF800000#32) y = y := by
  rw [ofBits_negInf]; exact max_bot_left y

end Cert.Attn.Scale

end
-- ==== Proof.RefSoftmax.lean ====
/-
  The reference computes the row softmax of the scaled scores.

  Read one operation at a time at an index: the score is the dot product over the 64 features times the
  host's scale, which is 1/8; the row's maximum is the fold of the maximum over the 2048 key rows from minus
  infinity, and the extra maximum with minus infinity changes nothing; the shifted exponentials and their row
  sum (the sum's starting value is zero) follow, and the quotient is the softmax.
-/
import proofs.«157505_j12713103196400_2_alg».proof.Proof.Gen.ReferenceIdeal.Read
import proofs.«157505_j12713103196400_2_alg».proof.Proof.Scale
import proofs.«157505_j12713103196400_2_alg».proof.Proof.Softmax

noncomputable section

namespace Cert.ReferenceIdeal.RowSoftmax

open Cert.ReferenceIdeal Cert.ReferenceIdeal.Gen Cert.ReferenceIdeal.Read Idealize.ShloMosaic Idealize.ShloMosaic.ValueIdx Cert.Attn

variable (q k : (⟨S4x16x2048x64, .f32⟩ : BufTy).Contents (Elt Ideal))

/-- The host's scale, one over the square root of 64, is 1/8. -/
theorem scale_eq (i : S_.Idx) : val_main_v1 (F := Ideal) i = Ideal.ofBits .f32 0x3E000000#32 :=
  Cert.Attn.Scale.one_div_sqrt_eq

/-- The scaled score at (b, h, r, j). -/
theorem score_eq (b : Fin 4) (h : Fin 16) (r j : Fin 2048) :
    val_main_v4 (F := Ideal) q k (ix4 b h r j) = scoreRow q k b h r j := by
  rw [val_main_v4_apply, val_main_v2_apply, val_main_v3_apply, scale_eq]
  have el : ∀ d : Fin 64, lidx_main_v2 (ix4 b h r j) d = ix4 b h r d := fun d => funext fun a => by
    match a with | ⟨0, _⟩ => rfl | ⟨1, _⟩ => rfl | ⟨2, _⟩ => rfl | ⟨3, _⟩ => rfl
  have er : ∀ d : Fin 64, ridx_main_v2 (ix4 b h r j) d = ix4 b h j d := fun d => funext fun a => by
    match a with | ⟨0, _⟩ => rfl | ⟨1, _⟩ => rfl | ⟨2, _⟩ => rfl | ⟨3, _⟩ => rfl
  simp only [el, er]
  rfl

/-- The reduction drops the last axis of the score array. -/
theorem dropsLast : S4x16x2048x2048.Reduces [3] S4x16x2048 := by decide

/-- Row (b, h, r) with key row j put back is (b, h, r, j). -/
theorem lift_eq (b : Fin 4) (h : Fin 16) (r : Fin 2048) (j : Fin (S4x16x2048x2048.size 3)) :
    dropsLast.lift (ix3 b h r) j = ix4 b h r (⟨j.val, j.isLt⟩ : Fin 2048) :=
  funext fun a => Fin.ext (by match a with | ⟨0, _⟩ => rfl | ⟨1, _⟩ => rfl | ⟨2, _⟩ => rfl | ⟨3, _⟩ => rfl)

/-- The row's maximum. -/
theorem max_eq (b : Fin 4) (h : Fin 16) (r : Fin 2048) :
    val_main_v7 (F := Ideal) q k (ix3 b h r) = rowMax (scoreRow q k b h r) := by
  rw [val_main_v7_apply, val_main_v6_apply, val_main_cst_2_apply]
  simp only [Ideal.maximumf_def, Ideal.ofBits_def]
  rw [Cert.Attn.Scale.max_negInf_left]
  unfold val_main_v5
  rw [Host.reduce_eq_fold_single FloatOps.maximumf _ _ reducesTo_S4x16x2048x2048_S4x16x2048_d3 dropsLast h_S_]
  have hf : (val_main_v4 (F := Ideal) q k ∘ dropsLast.lift (ix3 b h r)) = scoreRow q k b h r := funext fun j => by
    show val_main_v4 (F := Ideal) q k (dropsLast.lift (ix3 b h r) j) = _
    rw [lift_eq]
    exact score_eq q k b h r _
  exact congrArg (fun f => Finset.fold max (Ideal.ofBits .f32 0xFF800000#32) f (Finset.univ : Finset (Fin 2048))) hf

/-- The exponential of the score shifted by the row's maximum. -/
theorem exp_eq (b : Fin 4) (h : Fin 16) (r j : Fin 2048) :
    val_main_v11 (F := Ideal) q k (ix4 b h r j) = shiftedExp (scoreRow q k b h r) j := by
  rw [val_main_v11_apply, val_main_v10_apply, val_main_v9_apply, val_main_v8_apply, score_eq]
  rw [show idx_main_v8 (idx_main_v9 (ix4 b h r j)) = ix3 b h r from funext fun a => by
    match a with | ⟨0, _⟩ => rfl | ⟨1, _⟩ => rfl | ⟨2, _⟩ => rfl]
  rw [max_eq]
  rfl

/-- The row's sum of exponentials. -/
theorem sum_eq (b : Fin 4) (h : Fin 16) (r : Fin 2048) :
    val_main_v12 (F := Ideal) q k (ix3 b h r) = ∑ j : Fin 2048, shiftedExp (scoreRow q k b h r) j := by
  rw [val_main_v12_apply, val_main_cst_3_apply]
  simp only [Ideal.ofBits_def, Ideal.ofBits_zero_f32, zero_add]
  refine Finset.sum_congr rfl fun j _ => ?_
  rw [show idx_main_v12 (ix3 b h r) j = ix4 b h r j from funext fun a => by
    match a with | ⟨0, _⟩ => rfl | ⟨1, _⟩ => rfl | ⟨2, _⟩ => rfl | ⟨3, _⟩ => rfl]
  exact exp_eq q k b h r j

/-- The reference's result is the attention weights. -/
theorem result_eq : val_main_v15 (F := Ideal) q k = attn q k := by
  funext i
  obtain ⟨b, h, r, j, rfl⟩ : ∃ (b : Fin 4) (h : Fin 16) (r j : Fin 2048), i = ix4 b h r j := ⟨i 0, i 1, i 2, i 3, eq_ix4 i⟩
  rw [val_main_v15_apply, val_main_v14_apply, val_main_v13_apply, exp_eq, attn_ix4]
  rw [show idx_main_v13 (idx_main_v14 (ix4 b h r j)) = ix3 b h r from funext fun a => by
    match a with | ⟨0, _⟩ => rfl | ⟨1, _⟩ => rfl | ⟨2, _⟩ => rfl]
  rw [sum_eq]
  rfl

end Cert.ReferenceIdeal.RowSoftmax

end
-- ==== Proof.lean ====
/-
  Attention weights: softmax over the key rows of the scaled dot products of query rows with key rows.

  The kernel walks a grid of (batch, head, half of the query rows).  At each point it multiplies a block of
  1024 query rows with the transposed key matrix of that batch and head, scales the scores by 1/8, and
  normalises each row: subtract the row's maximum, exponentiate, divide by the row's sum.  The reference
  forms all scores with one batched dot product, scales them by one over the square root of 64, and applies
  the same row normalisation, with one more maximum against minus infinity.

  Over the extended reals the two agree entry by entry.  The square root of 64 is exactly 8, so both
  scales are 1/8.  The maximum with minus infinity is the identity.  A score is the same sum of 64 products
  on both sides; the row maximum is the same fold of the maximum over the 2048 key rows, started at minus
  infinity; the row sum is the same sum of 2048 exponentials.  The kernel's blocks tile the result, each
  block being the attention weights read through it, so the whole result is the attention weights.
  No finiteness of the inputs is used: nothing here distributes or cancels.

  The three frames are the generated frame runs.  The idealization rewrote nothing, so it is preserved
  trivially.
-/
import proofs.«157505_j12713103196400_2_alg».proof.Defs
import proofs.«157505_j12713103196400_2_alg».proof.Proof.Gen.Kernel
import proofs.«157505_j12713103196400_2_alg».proof.Proof.Gen.Kernel.Skeleton
import proofs.«157505_j12713103196400_2_alg».proof.Proof.Gen.Kernel.Launch
import proofs.«157505_j12713103196400_2_alg».proof.Proof.Gen.Kernel.Points
import proofs.«157505_j12713103196400_2_alg».proof.Proof.Gen.Kernel.Frame
import proofs.«157505_j12713103196400_2_alg».proof.Proof.Gen.KernelIdeal
import proofs.«157505_j12713103196400_2_alg».proof.Proof.Gen.KernelIdeal.Skeleton
import proofs.«157505_j12713103196400_2_alg».proof.Proof.Gen.KernelIdeal.Launch
import proofs.«157505_j12713103196400_2_alg».proof.Proof.Gen.KernelIdeal.Points
import proofs.«157505_j12713103196400_2_alg».proof.Proof.Gen.KernelIdeal.Frame
import proofs.«157505_j12713103196400_2_alg».proof.Proof.Gen.ReferenceIdeal
import proofs.«157505_j12713103196400_2_alg».proof.Proof.Gen.Pre_finite_inputs
import proofs.«157505_j12713103196400_2_alg».proof.Proof.Gen.KernelIdeal.Value
import proofs.«157505_j12713103196400_2_alg».proof.Proof.Gen.ReferenceIdeal.Run
import proofs.«157505_j12713103196400_2_alg».proof.Proof.Gen.ReferenceIdeal.Read
import proofs.«157505_j12713103196400_2_alg».proof.Proof.Blocks
import proofs.«157505_j12713103196400_2_alg».proof.Proof.RefSoftmax
import Idealize.ShloMosaic.Adequacy
import Idealize.ShloMosaic.Init

noncomputable section

namespace Cert.Proof

open Idealize.ShloMosaic Idealize.SL.Sem

/-- The kernel's program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the attention weights of the query and key arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, Cert.ReferenceIdeal.Read.val_main_v15_eq]
  exact Cert.ReferenceIdeal.RowSoftmax.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
